-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S2048x512 : Shape := ⟨2, ![2048, 512]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S2048x2048, .f32⟩
  | .local _ .vmem, ⟨5, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x2048_S2048x2048 : S2048x2048.ShapeCasts S2048x2048
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x4096.size a
  hwx0_2 : ∀ i : grid0.Coords, EltTy.bits .f32 = 32 ∨ (Rect.block (s := S8192x4096) S2048x2048.size (cc0_transform_2 i) (hinb0_2 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.Payload.lean ====
/-
  The kernel body's two stored values, read at an index of the [2048, 2048] output block.

  At the first step of a run the body stores zero everywhere. At every step it stores acc + a · bᵀ, where a is the
  [2048, 512] block of x (its rounding to a narrower format is the identity on extended reals), b the [2048, 512]
  block of sign(w), and acc what the block held: entry (p, q) is acc(p, q) plus the sum over k < 512 of
  a(p, k) · b(q, k).
-/
import proofs.«131983_j54082228191695_2_alg».proof.Proof.Gen.KernelIdeal.Skeleton
import proofs.«131983_j54082228191695_2_alg».proof.Proof.LibContract
import Idealize.ShloMosaic.Lib.Pipeline.Value

noncomputable section

open scoped BigOperators

namespace Cert.KernelIdeal.Bridge

open Cert.KernelIdeal Cert.KernelIdeal.Gen Idealize.ShloMosaic Idealize.ShloMosaic.ValueIdx

/-- The value stored at the first step of a run is zero at every index. -/
theorem zero_apply (j : S2048x2048.Idx) : k0_pay1 (F := Ideal) j = 0 :=
  Ideal.ofBits_zero_f32

/-- The left operand of the block product at (p, q) and contraction coordinate k is (p, k). -/
theorem lhs_at (p q : Fin 2048) (k : Fin 512)
    (r : dot_S2048x512_S2048x512_S2048x2048_1_1_0_0_n_n.contr.Idx) (hk : (r ⟨0, by decide⟩).val = k.val) :
    dot_S2048x512_S2048x512_S2048x2048_1_1_0_0_n_n.lhsIdx (ix2 p q) r = ix2 p k :=
  funext fun a => Fin.ext (by
    match a with
    | ⟨0, _⟩ =>
      show (dot_S2048x512_S2048x512_S2048x2048_1_1_0_0_n_n.lhsIdx (ix2 p q) r 0).val = p.val
      unfold DotDims.lhsIdx
      rw [dif_neg (show ¬(0 : Fin S2048x512.rank) ∈ dot_S2048x512_S2048x512_S2048x2048_1_1_0_0_n_n.lhsBatch by decide),
        dif_pos (show (0 : Fin S2048x512.rank) ∈ dot_S2048x512_S2048x512_S2048x2048_1_1_0_0_n_n.lhsNonContracting by decide)]
      rfl
    | ⟨1, _⟩ =>
      exact (dot_S2048x512_S2048x512_S2048x2048_1_1_0_0_n_n.lhsIdx_val_of_single rfl (ix2 p q) r).trans hk)

/-- The right operand of the block product at (p, q) and contraction coordinate k is (q, k). -/
theorem rhs_at (p q : Fin 2048) (k : Fin 512)
    (r : dot_S2048x512_S2048x512_S2048x2048_1_1_0_0_n_n.contr.Idx) (hk : (r ⟨0, by decide⟩).val = k.val) :
    dot_S2048x512_S2048x512_S2048x2048_1_1_0_0_n_n.rhsIdx (ix2 p q) r = ix2 q k :=
  funext fun a => Fin.ext (by
    match a with
    | ⟨0, _⟩ =>
      show (dot_S2048x512_S2048x512_S2048x2048_1_1_0_0_n_n.rhsIdx (ix2 p q) r 0).val = q.val
      unfold DotDims.rhsIdx
      rw [dif_neg (show ¬(0 : Fin S2048x512.rank) ∈ dot_S2048x512_S2048x512_S2048x2048_1_1_0_0_n_n.rhsBatch by decide),
        dif_pos (show (0 : Fin S2048x512.rank) ∈ dot_S2048x512_S2048x512_S2048x2048_1_1_0_0_n_n.rhsNonContracting by decide)]
      rfl
    | ⟨1, _⟩ =>
      exact (dot_S2048x512_S2048x512_S2048x2048_1_1_0_0_n_n.rhsIdx_val_of_single rfl (ix2 p q) r).trans hk)

/-- The value stored at every step, at (p, q): what the block held there plus the 512 products of row p of the
    x block with row q of the sign(w) block. -/
theorem step_apply (a : FVec Ideal S2048x512 .f32) (b : FVec Ideal S2048x512 .bf16) (acc : FVec Ideal S2048x2048 .f32)
    (p q : Fin 2048) :
    k0_pay2 (F := Ideal) a b acc (ix2 p q) = acc (ix2 p q) + ∑ k : Fin 512, a (ix2 p k) * b (ix2 q k) := by
  unfold k0_pay2
  rw [shapeCast_self, shapeCast_self]
  refine (addf_apply _ _ _).trans (congrArg (acc (ix2 p q) + ·) ?_)
  exact Cert.Lib.Contract.matmul_zero_single dot_S2048x512_S2048x512_S2048x2048_1_1_0_0_n_n none 512 rfl rfl
    (truncf .bf16 a bitsLt_bf16_f32) b (ix2 p q) (fun k => ix2 p k) (fun k => ix2 q k)
    (fun k r hk => lhs_at p q k r hk) (fun k r hk => rhs_at p q k r hk)

end Cert.KernelIdeal.Bridge

end
-- ==== Proof.Blocks.lean ====
/-
  The input blocks a grid point works on, read off the argument arrays.

  The grid is [4, 2, 8]: point t = 16·i + 8·j + k. The point's x block is block (i, k) of x in [2048, 512] blocks,
  so its entry (p, l) is x(2048·i + p, 512·k + l) with i = t / 16 and k = t % 8. Its weight block is block (j, k) of
  the array the host wrote before the launch, sign(w) (stored in a narrower format, which changes nothing on
  extended reals), so its entry (q, l) is sign(w(2048·j + q, 512·k + l)) with j = t / 8 % 2.
-/
import proofs.«131983_j54082228191695_2_alg».proof.Proof.Gen.KernelIdeal.Frame
import Idealize.ShloMosaic.Lib.StableHlo.Run
import Idealize.ShloMosaic.Lib.ValueIdx

noncomputable section

namespace Cert.KernelIdeal.Bridge

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- Which block of its array each input window holds at point t, decided over the 64 points. -/
theorem block_indices : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8 :=
  (by decide +kernel : ∀ t : Fin grid0.N, _)

/-- The array the weight window stages is sign(w), entry by entry. -/
theorem signed_weights (c : Dev nD) :
    (V m c main_v1 : S4096x4096.Idx → EReal) = fun i => Ideal.sign (m ((c : Thread nD τ).loc main_arg1) i) := by
  dsimp only [V, hostOps0]
  after_results
  rfl

/-- An entry of point t's x block is the entry of x at the block's offset. -/
theorem x_block (c : Dev nD) (t : Fin cfg0.N) (y : S2048x512.Idx) (i : S8192x4096.Idx)
    (h0 : (i 0).val = t.val / 16 * 2048 + (y 0).val) (h1 : (i 1).val = t.val % 8 * 512 + (y 1).val) :
    iblk m c 0 t y = m ((c : Thread nD τ).loc main_arg0) i := by
  obtain ⟨e0, e1, -, -⟩ := block_indices t
  show V m c main_arg0 (((cfg0.win 0).blk t).view.emb y) = _
  rw [V_main_arg0]
  refine congrArg _ (funext fun a => Fin.ext ?_)
  match a with
  | ⟨0, _⟩ => show win0_0.index t (0 : Fin 2) * 2048 + 1 * (y 0).val = (i 0).val; omega
  | ⟨1, _⟩ => show win0_0.index t (1 : Fin 2) * 512 + 1 * (y 1).val = (i 1).val; omega

/-- An entry of point t's weight block is the sign of the entry of w at the block's offset. -/
theorem w_block (c : Dev nD) (t : Fin cfg0.N) (y : S2048x512.Idx) (i : S4096x4096.Idx)
    (h0 : (i 0).val = t.val / 8 % 2 * 2048 + (y 0).val) (h1 : (i 1).val = t.val % 8 * 512 + (y 1).val) :
    iblk m c 1 t y = Ideal.sign (m ((c : Thread nD τ).loc main_arg1) i) := by
  obtain ⟨-, -, e0, e1⟩ := block_indices t
  show V m c main_v1 (((cfg0.win 1).blk t).view.emb y) = _
  refine (congrFun (signed_weights m c) _).trans ?_
  refine congrArg (fun z => Ideal.sign (m ((c : Thread nD τ).loc main_arg1) z)) (funext fun a => Fin.ext ?_)
  match a with
  | ⟨0, _⟩ => show win0_1.index t (0 : Fin 2) * 2048 + 1 * (y 0).val = (i 0).val; omega
  | ⟨1, _⟩ => show win0_1.index t (1 : Fin 2) * 512 + 1 * (y 1).val = (i 1).val; omega

end Cert.KernelIdeal.Bridge

end
-- ==== Proof.LibSumTiles.lean ====
/-
  A finite sum cut into consecutive tiles.

  A function f on the first N naturals is extended by zero to every natural; psum f n is the sum of the first n
  values. The partial sum over no rows is zero, the partial sum over all N rows is the sum over Fin N, and the
  partial sum grows by one tile of T consecutive rows at a time:  psum f (n + T) = psum f n + ∑ p < T, f (n + p).
  So a sum over Fin (T · k) accumulated tile by tile, first tile to last, is the whole sum. Only the commutative
  monoid laws of + are used; nothing here depends on a program.
-/
import Mathlib.Algebra.BigOperators.Fin
import Mathlib.Algebra.BigOperators.Intervals

open scoped BigOperators

namespace Cert.SumTiles

variable {β : Type*} [AddCommMonoid β] {N : ℕ}

/-- A function on the first N naturals, extended by zero. -/
def ext0 (f : Fin N → β) (n : ℕ) : β := if h : n < N then f ⟨n, h⟩ else 0

theorem ext0_of_lt (f : Fin N → β) (n : ℕ) (h : n < N) : ext0 f n = f ⟨n, h⟩ := dif_pos h

/-- The sum of the first n values of f (the values past N count as zero). -/
def psum (f : Fin N → β) (n : ℕ) : β := ∑ r ∈ Finset.range n, ext0 f r

/-- No rows: zero. -/
theorem psum_zero (f : Fin N → β) : psum f 0 = 0 := Finset.sum_range_zero _

/-- All N rows: the sum over Fin N. -/
theorem psum_full (f : Fin N → β) : psum f N = ∑ r : Fin N, f r := by
  unfold psum
  rw [← Fin.sum_univ_eq_sum_range (fun r => ext0 f r) N]
  exact Finset.sum_congr rfl fun r _ => ext0_of_lt f r.val r.isLt

/-- One more tile of T consecutive rows n, n + 1, …, n + T − 1, all below N. -/
theorem psum_add_tile (f : Fin N → β) (n T : ℕ) (h : n + T ≤ N) :
    psum f (n + T) = psum f n + ∑ p : Fin T, f ⟨n + p.val, by have := p.isLt; omega⟩ := by
  unfold psum
  rw [Finset.sum_range_add, ← Fin.sum_univ_eq_sum_range (fun p => ext0 f (n + p)) T]
  exact congrArg _ (Finset.sum_congr rfl fun p _ => ext0_of_lt f _ _)

/-- The first tile, from nothing: the zero in front is kept, as an accumulator started at zero has it. -/
theorem psum_first_tile (f : Fin N → β) (T : ℕ) (h : T ≤ N) :
    psum f T = 0 + ∑ p : Fin T, f ⟨p.val, by have := p.isLt; omega⟩ := by
  have e := psum_add_tile f 0 T (by omega)
  rw [psum_zero] at e
  simp only [Nat.zero_add] at e
  exact e

end Cert.SumTiles
-- ==== Proof.LibTileRange.lean ====
/-
  A sum over Fin N as a sum of J tiles of T consecutive terms, when T · J = N.

  With f extended by zero past N, the sum of the first J tiles — tile s holds the terms T·s, T·s + 1, …, T·s + T − 1 —
  is the partial sum of the first T·J terms (induction on J, one tile at a time), and for T · J = N that partial sum
  is the whole sum. Only the commutative monoid laws of + are used.
-/
import proofs.«131983_j54082228191695_2_alg».proof.Proof.LibSumTiles

open scoped BigOperators

namespace Cert.SumTiles

variable {β : Type*} [AddCommMonoid β] {N : ℕ}

/-- The first J tiles of T terms each add up to the partial sum of the first T · J terms. -/
theorem range_tiles (f : Fin N → β) (T : ℕ) : ∀ J : ℕ, T * J ≤ N →
    ∑ s ∈ Finset.range J, ∑ p : Fin T, ext0 f (T * s + p.val) = psum f (T * J)
  | 0, _ => by rw [Finset.sum_range_zero, Nat.mul_zero, psum_zero]
  | J + 1, h => by
    have hJ : T * J + T ≤ N := by rw [← Nat.mul_succ]; exact h
    rw [Finset.sum_range_succ, range_tiles f T J (le_trans (Nat.le_add_right _ _) hJ), Nat.mul_succ,
      psum_add_tile f (T * J) T hJ]
    exact congrArg _ (Finset.sum_congr rfl fun p _ => ext0_of_lt f _ _)

/-- J tiles of T terms that exhaust Fin N add up to the sum over Fin N. -/
theorem sum_tiles (f : Fin N → β) (T J : ℕ) (h : T * J = N) :
    ∑ s ∈ Finset.range J, ∑ p : Fin T, ext0 f (T * s + p.val) = ∑ r : Fin N, f r := by
  rw [range_tiles f T J (le_of_eq h), h, psum_full]

end Cert.SumTiles
-- ==== Proof.SignedProduct.lean ====
/-
  The function both programs compute: y = x · sign(w)ᵀ on the extended reals.

  For x of shape [8192, 4096] and w of shape [4096, 4096], entry (R, C) of y is the sum over k < 4096 of
  x(R, k) · sign(w(C, k)): row R of x against row C of sign(w). The sum can be taken 512 terms at a time, tile
  s = 0, …, 7 holding k = 512·s, …, 512·s + 511; adding the eight tile sums gives the whole sum, by associativity
  and commutativity of + alone, so nothing here asks the entries to be finite.
-/
import Idealize.ShloMosaic.Lib.ValueIdx
import Idealize.ShloMosaic.PureOps.Ideal.Laws
import proofs.«131983_j54082228191695_2_alg».proof.Proof.LibTileRange

noncomputable section

open scoped BigOperators

namespace Cert.SignedProduct

open Idealize.ShloMosaic Idealize.ShloMosaic.ValueIdx

/-- The shape of x and of y, and the shape of w. -/
abbrev SX : Shape := ⟨2, ![8192, 4096]⟩
abbrev SW : Shape := ⟨2, ![4096, 4096]⟩

/-- The k-th product of entry (R, C): x(R, k) · sign(w(C, k)). -/
def term (x : SX.Idx → EReal) (w : SW.Idx → EReal) (R : Fin 8192) (C : Fin 4096) (k : Fin 4096) : EReal :=
  x (ix2 R k) * Ideal.sign (w (ix2 C k))

/-- y = x · sign(w)ᵀ, entry by entry. -/
def Y (x : SX.Idx → EReal) (w : SW.Idx → EReal) : SX.Idx → EReal :=
  fun i => ∑ k : Fin 4096, term x w (i 0) (i 1) k

/-- Entry (R, C) accumulated over the eight tiles of 512 products is the whole sum. -/
theorem eight_tiles (x : SX.Idx → EReal) (w : SW.Idx → EReal) (R : Fin 8192) (C : Fin 4096) :
    ∑ s ∈ Finset.range 8, ∑ p : Fin 512, Cert.SumTiles.ext0 (term x w R C) (512 * s + p.val)
      = ∑ k : Fin 4096, term x w R C k :=
  Cert.SumTiles.sum_tiles (term x w R C) 512 8 rfl

end Cert.SignedProduct

end
-- ==== Proof.Fold.lean ====
/-
  The kernel's output array is y = x · sign(w)ᵀ.

  Output block (i, j) is worked on by the eight consecutive grid points 8·r, …, 8·r + 7 with r = 2·i + j. The first
  stores zero plus its 512 products, each later one adds its 512 products to what the block held, and the last one
  writes the block back. So entry (p, q) of the block ends as 0 plus, for s = 0, …, 7, the sum over l < 512 of
  x(2048·i + p, 512·s + l) · sign(w(2048·j + q, 512·s + l)): the eight tiles of the 4096 products of entry
  (2048·i + p, 2048·j + q) of y, whose sum is that entry.
-/
import proofs.«131983_j54082228191695_2_alg».proof.Proof.Gen.KernelIdeal.Value
import proofs.«131983_j54082228191695_2_alg».proof.Proof.Payload
import proofs.«131983_j54082228191695_2_alg».proof.Proof.Blocks
import proofs.«131983_j54082228191695_2_alg».proof.Proof.SignedProduct

noncomputable section

open scoped BigOperators

namespace Cert.KernelIdeal.Bridge

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- Row p of a [2048, 512] block against row q of another: the sum of their 512 products. -/
def rowDot (a : FVec Ideal S2048x512 .f32) (b : FVec Ideal S2048x512 .bf16) (p q : Fin 2048) : EReal :=
  ∑ l : Fin 512, a (ix2 p l) * b (ix2 q l)

/-- What point n adds to entry (p, q) of its output block: row p of its x block against row q of its weight block
    (nothing past the grid). -/
def addend (c : Dev nD) (n : ℕ) (p q : Fin 2048) : EReal :=
  if h : n < cfg0.N then rowDot (iblk m c 0 ⟨n, h⟩) (iblk m c 1 ⟨n, h⟩) p q else 0

/-- The first point of a run leaves zero plus its products. -/
theorem reset_apply (c : Dev nD) (b : ℕ) (h : b < cfg0.N) (j : S2048x2048.Idx) :
    Value.reset2 m c b h j = (fun _ : S2048x2048.Idx => (0 : EReal)) j + addend m c b (j 0) (j 1) := by
  obtain ⟨p, q, rfl⟩ : ∃ (p q : Fin 2048), j = ix2 p q := ⟨j 0, j 1, eq_ix2 j⟩
  show k0_pay2 (F := Ideal) (iblk m c 0 ⟨b, h⟩) (iblk m c 1 ⟨b, h⟩) (k0_pay1 (F := Ideal)) (ix2 p q) = 0 + addend m c b p q
  refine (step_apply (iblk m c 0 ⟨b, h⟩) (iblk m c 1 ⟨b, h⟩) (k0_pay1 (F := Ideal)) p q).trans ?_
  rw [zero_apply]
  unfold addend
  rw [dif_pos h]
  rfl

/-- Every later point adds its products to what the block held. -/
theorem step_at (c : Dev nD) (n : ℕ) (h : n < cfg0.N) (acc : S2048x2048.Idx → EReal) (j : S2048x2048.Idx) :
    Value.step2 m c n h acc j = acc j + addend m c n (j 0) (j 1) := by
  obtain ⟨p, q, rfl⟩ : ∃ (p q : Fin 2048), j = ix2 p q := ⟨j 0, j 1, eq_ix2 j⟩
  show k0_pay2 (F := Ideal) (iblk m c 0 ⟨n, h⟩) (iblk m c 1 ⟨n, h⟩) acc (ix2 p q) = acc (ix2 p q) + addend m c n p q
  refine (step_apply (iblk m c 0 ⟨n, h⟩) (iblk m c 1 ⟨n, h⟩) acc p q).trans ?_
  unfold addend
  rw [dif_pos h]
  rfl

/-- Point 8·r + s of the run of output entry i adds tile s of that entry's 4096 products. -/
theorem addend_tile (c : Dev nD) (i : S8192x4096.Idx) (s : ℕ) (hs : s < 8) :
    addend m c (8 * Value.run2Of i + s) (Value.loc2Of i 0) (Value.loc2Of i 1)
      = ∑ l : Fin 512, Cert.SumTiles.ext0
          (Cert.SignedProduct.term (m ((c : Thread nD τ).loc main_arg0)) (m ((c : Thread nD τ).loc main_arg1)) (i 0) (i 1))
          (512 * s + l.val) := by
  have hN : cfg0.N = 64 := N_0
  have hR : (i 0).val < 8192 := (i 0).isLt
  have hC : (i 1).val < 4096 := (i 1).isLt
  have hr : Value.run2Of i = 2 * ((i 0).val / 2048) + (i 1).val / 2048 := by
    show 2 * ((i 0).val / 2048 - 0) + 1 * ((i 1).val / 2048 - 0) = _
    omega
  have hp : (Value.loc2Of i 0).val = (i 0).val % 2048 := rfl
  have hq : (Value.loc2Of i 1).val = (i 1).val % 2048 := rfl
  have hn : 8 * Value.run2Of i + s < cfg0.N := by rw [hN, hr]; omega
  unfold addend
  rw [dif_pos hn]
  unfold rowDot
  refine Finset.sum_congr rfl fun l _ => ?_
  have hl : l.val < 512 := l.isLt
  have hk : 512 * s + l.val < 4096 := by omega
  rw [Cert.SumTiles.ext0_of_lt _ _ hk]
  unfold Cert.SignedProduct.term
  refine congrArg₂ (· * ·) ?_ ?_
  · refine x_block m c ⟨8 * Value.run2Of i + s, hn⟩ (ix2 (Value.loc2Of i 0) l) (ix2 (i 0) ⟨512 * s + l.val, hk⟩) ?_ ?_
    · show (i 0).val = (8 * Value.run2Of i + s) / 16 * 2048 + (Value.loc2Of i 0).val
      rw [hp, hr]; omega
    · show 512 * s + l.val = (8 * Value.run2Of i + s) % 8 * 512 + l.val
      omega
  · refine w_block m c ⟨8 * Value.run2Of i + s, hn⟩ (ix2 (Value.loc2Of i 1) l) (ix2 (i 1) ⟨512 * s + l.val, hk⟩) ?_ ?_
    · show (i 1).val = (8 * Value.run2Of i + s) / 8 % 2 * 2048 + (Value.loc2Of i 1).val
      rw [hq, hr]; omega
    · show 512 * s + l.val = (8 * Value.run2Of i + s) % 8 * 512 + l.val
      omega

/-- The array the kernel's run leaves is the signed product of the argument arrays. -/
theorem output_eq (c : Dev nD) :
    Value.G2 m c = Cert.SignedProduct.Y (m ((c : Thread nD τ).loc main_arg0)) (m ((c : Thread nD τ).loc main_arg1)) := by
  funext i
  have hN : cfg0.N = 64 := N_0
  have hR : (i 0).val < 8192 := (i 0).isLt
  have hC : (i 1).val < 4096 := (i 1).isLt
  have hb : 8 * Value.run2Of i + 7 < cfg0.N := by
    rw [hN]
    show 8 * (2 * ((i 0).val / 2048 - 0) + 1 * ((i 1).val / 2048 - 0)) + 7 < 64
    omega
  unfold Value.G2
  rw [dif_pos hb]
  refine (Pipeline.accAt_add_apply (ι := S2048x2048.Idx) (β := EReal) (Value.reset2 m c) (Value.step2 m c)
    (fun _ => 0) (fun n j => addend m c n (j 0) (j 1)) (8 * Value.run2Of i) 7
    (fun h j => reset_apply m c _ h j) (fun n h acc j _ _ => step_at m c n h acc j) 7 le_rfl hb (Value.loc2Of i)).trans ?_
  show (0 : EReal) + ∑ s ∈ Finset.range (7 + 1), addend m c (8 * Value.run2Of i + s) (Value.loc2Of i 0) (Value.loc2Of i 1) = _
  rw [zero_add]
  unfold Cert.SignedProduct.Y
  exact (Finset.sum_congr rfl fun s hs => addend_tile m c i s (Finset.mem_range.mp hs)).trans
    (Cert.SignedProduct.eight_tiles _ _ (i 0) (i 1))

end Cert.KernelIdeal.Bridge

end
-- ==== Proof.RefProduct.lean ====
/-
  The reference's result, index by index: the host product of x with sign(w), contracting the second axis of
  each, is y = x · sign(w)ᵀ. Entry i of the product is the sum over k of x at (i₀, k) times sign(w) at (i₁, k),
  and sign is applied entry by entry.
-/
import proofs.«131983_j54082228191695_2_alg».proof.Proof.Gen.ReferenceIdeal.Read
import proofs.«131983_j54082228191695_2_alg».proof.Proof.SignedProduct

noncomputable section

open scoped BigOperators

namespace Cert.ReferenceIdeal.Product

open Cert.ReferenceIdeal Idealize.ShloMosaic Idealize.ShloMosaic.ValueIdx

/-- The reference's term of its two arguments is the signed product. -/
theorem reference_eq (x : FVec Ideal S8192x4096 .f32) (w : FVec Ideal S4096x4096 .f32) :
    Host.dotGeneral (F := Ideal) dot_S8192x4096_S4096x4096_S8192x4096_1_1_0_0_n_n none x (Host.sign (F := Ideal) w)
      = Cert.SignedProduct.Y x w := by
  rw [Read.val_main_v1_eq]
  funext i
  rw [Read.val_main_v1_apply]
  refine Finset.sum_congr rfl fun k _ => ?_
  have el : Read.lidx_main_v1 i k = ix2 (n0 := 8192) (n1 := 4096) (i 0) k := funext fun a => by
    match a with | ⟨0, _⟩ => rfl | ⟨1, _⟩ => rfl
  have er : Read.ridx_main_v1 i k = ix2 (n0 := 4096) (n1 := 4096) (i 1) k := funext fun a => by
    match a with | ⟨0, _⟩ => rfl | ⟨1, _⟩ => rfl
  rw [el, er]
  rfl

end Cert.ReferenceIdeal.Product

end
-- ==== Proof.lean ====
/-
  A binarized linear layer: y = x · sign(w)ᵀ for x of shape [8192, 4096] and w of shape [4096, 4096].

  The kernel first takes sign(w) on the host, then computes y block by block: output block (i, j) of shape
  [2048, 2048] is accumulated over eight grid points, point k adding the product of block (i, k) of x with the
  transpose of block (j, k) of sign(w), both [2048, 512], onto a block that starts at zero. The reference takes
  sign(w) and contracts the second axis of x with the second axis of sign(w) in one product.

  On the extended reals a change of float format is the identity, so entry (R, C) of the kernel's result is zero
  plus eight sums of 512 products x(R, l) · sign(w(C, l)), l running through 512·k, …, 512·k + 511, and the
  reference's entry is the sum of the same 4096 products. The two agree because a finite sum may be regrouped
  (associativity and commutativity of +) and 0 + a = a; no entry needs to be finite for that, so the precondition
  is not opened. The kernel's idealization rewrites nothing, so it is preserved trivially. Each program's frame
  is its run with the result dropped.
-/
import proofs.«131983_j54082228191695_2_alg».proof.Defs
import proofs.«131983_j54082228191695_2_alg».proof.Proof.Gen.Kernel.Frame
import proofs.«131983_j54082228191695_2_alg».proof.Proof.Gen.KernelIdeal.Value
import proofs.«131983_j54082228191695_2_alg».proof.Proof.Gen.Pre_finite_inputs
import proofs.«131983_j54082228191695_2_alg».proof.Proof.Gen.ReferenceIdeal.Run
import proofs.«131983_j54082228191695_2_alg».proof.Proof.Fold
import proofs.«131983_j54082228191695_2_alg».proof.Proof.RefProduct
import Idealize.ShloMosaic.Adequacy
import Idealize.ShloMosaic.Init

noncomputable section

namespace Cert.Proof

open Idealize.ShloMosaic Idealize.SL.Sem

/-- The idealized kernel terminates without fault and leaves x and w as they were: its run, the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference terminates without fault and leaves x and w as they were: its run, the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x and w both programs end with y = x · sign(w)ᵀ: the reference's one product is y
    entry by entry, and the kernel's blocks, each accumulated over eight points, tile y. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Product.reference_eq _ _).trans (Cert.KernelIdeal.Bridge.output_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
